-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S128x10 .f32) (main_arg11 : FVec F S10 .f32) (main_v33 : IVec S_ 1) : IVec S_ 1 :=
  let main_v34 : FVec F S128x10 .f32 := Host.absf main_arg10
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg11
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x10 .f32) (main_arg11 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 180
  | .vmem => 19
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S1600000x128, .f32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000, .f32⟩
  | 106 => ⟨S100000x1, .f32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S1600000, .f32⟩
  | 8 => ⟨S1600000x1, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S1600000x128, .f32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S100000, .f32⟩
  | 25 => ⟨S100000x1, .f32⟩
  | 26 => ⟨S100000x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S_, .f32⟩
  | 36 => ⟨S512x128, .f32⟩
  | 37 => ⟨S100000x1, .i32⟩
  | 38 => ⟨S512x128, .f32⟩
  | 39 => ⟨S_, .f32⟩
  | 40 => ⟨S100000, .f32⟩
  | 41 => ⟨S_, .f32⟩
  | 42 => ⟨S512, .f32⟩
  | 43 => ⟨S100000x1, .i32⟩
  | 44 => ⟨S512, .f32⟩
  | 45 => ⟨S_, .f32⟩
  | 46 => ⟨S512, .f32⟩
  | 47 => ⟨S512, .f32⟩
  | 48 => ⟨S512x1, .f32⟩
  | 49 => ⟨S512x128, .f32⟩
  | 50 => ⟨S512x128, .f32⟩
  | 51 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S512x128, .f32⟩
  | .local _ .vmem, ⟨16, _⟩ => ⟨S128x10, .f32⟩
  | .local _ .vmem, ⟨17, _⟩ => ⟨S10, .f32⟩
  | .local _ .vmem, ⟨18, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call1_cst : Ref sig .tc := ⟨.hbm, 113, rfl⟩
abbrev main_call1_v0 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_17 : Ref sig .tc := ⟨.hbm, 126, rfl⟩
abbrev main_v91 : Ref sig .tc := ⟨.hbm, 127, rfl⟩
abbrev main_v92 : Ref sig .tc := ⟨.hbm, 128, rfl⟩
abbrev main_c_18 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_19 : Ref sig .tc := ⟨.hbm, 137, rfl⟩
abbrev main_v100 : Ref sig .tc := ⟨.hbm, 138, rfl⟩
abbrev main_v101 : Ref sig .tc := ⟨.hbm, 139, rfl⟩
abbrev main_c_20 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_21 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_call2_cst : Ref sig .tc := ⟨.hbm, 160, rfl⟩
abbrev main_call2_v0 : Ref sig .tc := ⟨.hbm, 161, rfl⟩
abbrev main_v120 : Ref sig .tc := ⟨.hbm, 162, rfl⟩
abbrev main_cst_22 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_23 : Ref sig .tc := ⟨.hbm, 167, rfl⟩
abbrev main_v124 : Ref sig .tc := ⟨.hbm, 168, rfl⟩
abbrev main_cst_24 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_25 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10.size a ≤ S10.size a
  hwx3_2 : ∀ i : grid3.Coords, EltTy.bits .f32 = 32 ∨ (Rect.block (s := S10) S10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x10.size a ≤ S512x10.size a
  hwx3_3 : ∀ i : grid3.Coords, EltTy.bits .f32 = 32 ∨ (Rect.block (s := S512x10) S512x10.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v82) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v83) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v132) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v133) S512x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000x1, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S1600000x128, .f32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000, .f32⟩
  | 106 => ⟨S100000x1, .f32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S1600000, .f32⟩
  | 8 => ⟨S1600000x1, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S1600000x128, .f32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S100000, .f32⟩
  | 25 => ⟨S100000x1, .f32⟩
  | 26 => ⟨S100000x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S_, .f32⟩
  | 36 => ⟨S512x128, .f32⟩
  | 37 => ⟨S100000x1, .i32⟩
  | 38 => ⟨S512x128, .f32⟩
  | 39 => ⟨S_, .f32⟩
  | 40 => ⟨S100000, .f32⟩
  | 41 => ⟨S_, .f32⟩
  | 42 => ⟨S512, .f32⟩
  | 43 => ⟨S100000x1, .i32⟩
  | 44 => ⟨S512, .f32⟩
  | 45 => ⟨S_, .f32⟩
  | 46 => ⟨S512, .f32⟩
  | 47 => ⟨S512, .f32⟩
  | 48 => ⟨S512x1, .f32⟩
  | 49 => ⟨S512x128, .f32⟩
  | 50 => ⟨S512x128, .f32⟩
  | 51 => ⟨S512x10, .f32⟩
  | 52 => ⟨S1x10, .f32⟩
  | 53 => ⟨S512x10, .f32⟩
  | 54 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call1_cst : Ref sig .tc := ⟨.hbm, 113, rfl⟩
abbrev main_call1_v0 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_17 : Ref sig .tc := ⟨.hbm, 126, rfl⟩
abbrev main_v91 : Ref sig .tc := ⟨.hbm, 127, rfl⟩
abbrev main_v92 : Ref sig .tc := ⟨.hbm, 128, rfl⟩
abbrev main_c_18 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_19 : Ref sig .tc := ⟨.hbm, 137, rfl⟩
abbrev main_v100 : Ref sig .tc := ⟨.hbm, 138, rfl⟩
abbrev main_v101 : Ref sig .tc := ⟨.hbm, 139, rfl⟩
abbrev main_c_20 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_21 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_call2_cst : Ref sig .tc := ⟨.hbm, 160, rfl⟩
abbrev main_call2_v0 : Ref sig .tc := ⟨.hbm, 161, rfl⟩
abbrev main_v120 : Ref sig .tc := ⟨.hbm, 162, rfl⟩
abbrev main_cst_22 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_23 : Ref sig .tc := ⟨.hbm, 167, rfl⟩
abbrev main_v124 : Ref sig .tc := ⟨.hbm, 168, rfl⟩
abbrev main_cst_24 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_25 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel's run, with its result named.

  The program is four kernel launches among stretches of host operations.  From any memory with zero counters every
  weakly fair execution ends, and at the end each buffer of a core holds what the fold of the twelve segments over
  the launch memory leaves there: a host stretch rewrites the buffers its operations write, a launch leaves in each of
  its arrays what its grid points wrote back.  The frame claim reads only the twelve argument arrays off that final
  state; here the result array (the classifier's output) is read off it as well, at the fold's last stage.
-/
import proofs.«178841_j5299989643753_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program ends, nothing faulting; the result array holds the last stage of the
    fold at its buffer, and the argument arrays are as launched. -/
theorem run : θ_run defs (onTc (τ := τ) (main (F := F))) ⟨m, fun _ => 0, ρ⟩ (fun r => ∀ c : Dev nD,
      r.2.mem ((c.tc : Thread nD τ).loc main_v133) = W12 m ρ c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v133 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Result

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.Product.lean ====
/-
  The dense products of the network, entry by entry, at the exact (extended-real) values.

  Each graph-convolution layer multiplies the 100000×128 array of node features by a 128×128 weight matrix.  The
  kernel does it 5000 rows at a time — a block of rows times the whole matrix on the vector unit, into a zero
  accumulator, after a change of float format that keeps every value — and the reference in one product.  Entry
  (p, q) of either is  Σ_k A(p, k) · W(k, q):  the rows do not mix, so a block of the product is the product of the
  block.  The classifier is one 512×128 by 128×10 product plus a bias of ten numbers laid along every row.
-/
import proofs.«178841_j5299989643753_1_alg».proof.Proof.Gen.KernelIdeal.Skeleton
import proofs.«178841_j5299989643753_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Net

open Idealize.ShloMosaic Idealize.ShloMosaic.ValueIdx Cert.RowDot

/-- The product A·W of an M×K array and a K×N matrix: entry (p, q) is row p of A times W, at column q. -/
def prod {M K N : Nat} (A : (⟨2, ![M, K]⟩ : Shape).Idx → EReal) (W : (⟨2, ![K, N]⟩ : Shape).Idx → EReal) :
    (⟨2, ![M, N]⟩ : Shape).Idx → EReal := fun i => rowDot (rowOf A (i 0)) W (i 1)

/-- The product plus a bias of N numbers laid along every row: entry (p, q) is (A·W)(p, q) + b(q). -/
def affine {M K N : Nat} (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => prod A W i + b (ix1 (i 1))

/-- The host's one whole product is that array. -/
theorem dotGeneral_plain_eq {M K N : Nat} (prec : Option ContractPrecision)
    (A : FVec Ideal (⟨2, ![M, K]⟩ : Shape) .f32) (W : FVec Ideal (⟨2, ![K, N]⟩ : Shape) .f32) :
    Host.dotGeneral (DotDims.plain M K N) prec A W = prod A W :=
  funext fun j => dotGeneral_plain_apply prec .single A W j

end Cert.Net

namespace Cert.KernelIdeal.Payload

open Idealize.ShloMosaic Idealize.ShloMosaic.ValueIdx Cert.RowDot Cert.Net Cert.KernelIdeal Cert.KernelIdeal.Gen

/-- The first layer's body on a block of 5000 rows: the block's rows times the matrix. -/
theorem pay0_eq (x : Vec Ideal S5000x128 .f32) (w : Vec Ideal S128x128 .f32) :
    k0_pay1 (F := Ideal) x w = prod (M := 5000) (K := 128) (N := 128) x w := by
  funext j
  show matmul (F := Ideal) dot_S5000x128_S128x128_S5000x128_1_0_0_1_n_n none (truncf (F := Ideal) .bf16 x bitsLt_bf16_f32)
    (truncf (F := Ideal) .bf16 w bitsLt_bf16_f32) (constant (F := Ideal) S5000x128 .f32 0x00000000#32) j = _
  exact matmul_plain_zero_apply (M := 5000) (K := 128) (N := 128) none (truncf (F := Ideal) .bf16 x bitsLt_bf16_f32)
    (truncf (F := Ideal) .bf16 w bitsLt_bf16_f32) j

/-- The second layer's body: the same product (the block is first recast to its own shape, which changes nothing). -/
theorem pay1_eq (x : Vec Ideal S5000x128 .f32) (w : Vec Ideal S128x128 .f32) :
    k1_pay1 (F := Ideal) x w = prod (M := 5000) (K := 128) (N := 128) x w := by
  funext j
  show matmul (F := Ideal) dot_S5000x128_S128x128_S5000x128_1_0_0_1_n_n none
    (truncf (F := Ideal) .bf16 (shapeCast S5000x128 x shapeCasts_S5000x128_S5000x128) bitsLt_bf16_f32)
    (truncf (F := Ideal) .bf16 w bitsLt_bf16_f32) (constant (F := Ideal) S5000x128 .f32 0x00000000#32) j = _
  rw [shapeCast_self]
  exact matmul_plain_zero_apply (M := 5000) (K := 128) (N := 128) none (truncf (F := Ideal) .bf16 x bitsLt_bf16_f32)
    (truncf (F := Ideal) .bf16 w bitsLt_bf16_f32) j

/-- The third layer's body: the same product again. -/
theorem pay2_eq (x : Vec Ideal S5000x128 .f32) (w : Vec Ideal S128x128 .f32) :
    k2_pay1 (F := Ideal) x w = prod (M := 5000) (K := 128) (N := 128) x w := by
  funext j
  show matmul (F := Ideal) dot_S5000x128_S128x128_S5000x128_1_0_0_1_n_n none
    (truncf (F := Ideal) .bf16 (shapeCast S5000x128 x shapeCasts_S5000x128_S5000x128) bitsLt_bf16_f32)
    (truncf (F := Ideal) .bf16 w bitsLt_bf16_f32) (constant (F := Ideal) S5000x128 .f32 0x00000000#32) j = _
  rw [shapeCast_self]
  exact matmul_plain_zero_apply (M := 5000) (K := 128) (N := 128) none (truncf (F := Ideal) .bf16 x bitsLt_bf16_f32)
    (truncf (F := Ideal) .bf16 w bitsLt_bf16_f32) j

/-- The classifier's body: the pooled features times the class matrix, plus the bias recast as one row and spread
    over the 512 rows. -/
theorem pay3_eq (p : Vec Ideal S512x128 .f32) (w : Vec Ideal S128x10 .f32) (b : Vec Ideal S10 .f32) :
    k3_pay1 (F := Ideal) p w b = affine (M := 512) (K := 128) (N := 10) p w b := by
  funext j
  obtain ⟨r, q, rfl⟩ : ∃ (r : Fin 512) (q : Fin 10), j = ix2 r q := ⟨j 0, j 1, eq_ix2 j⟩
  show matmul (F := Ideal) dot_S512x128_S128x10_S512x10_1_0_0_1_n_n none
      (truncf (F := Ideal) .bf16 (shapeCast S512x128 p shapeCasts_S512x128_S512x128) bitsLt_bf16_f32)
      (truncf (F := Ideal) .bf16 w bitsLt_bf16_f32) (constant (F := Ideal) S512x10 .f32 0x00000000#32) (ix2 r q)
    + broadcastTo S512x10 (shapeCast S1x10 b shapeCasts_S10_S1x10) broadcasts_S1x10_S512x10 (ix2 r q) = _
  rw [shapeCast_self, broadcastTo_1b_ab_apply (a := 512) (b := 10), shapeCast_a_1a_apply (a := 10)]
  exact congrArg (· + b (ix1 q)) (matmul_plain_zero_apply (M := 512) (K := 128) (N := 10) none
    (truncf (F := Ideal) .bf16 p bitsLt_bf16_f32) (truncf (F := Ideal) .bf16 w bitsLt_bf16_f32) (ix2 r q))

end Cert.KernelIdeal.Payload

end
-- ==== Proof.Region0.lean ====
/-
  Launch 0 of the four: one graph-convolution layer's product, block by block.

  The grid has twenty points.  Point t reads rows 5000·t … 5000·t + 4999 of the 100000×128 feature array and the whole
  128×128 weight matrix, and writes rows 5000·t … 5000·t + 4999 of the result.  Since entry (p, q) of a product needs
  only row p of the left operand, what point t writes back is block t of the whole product; the twenty blocks tile
  the result array, so after the launch the array holds the whole product of the two arrays as the launch found them.
-/
import proofs.«178841_j5299989643753_1_alg».proof.Proof.Gen.KernelIdeal.Frame
import proofs.«178841_j5299989643753_1_alg».proof.Proof.Product

set_option maxRecDepth 16384

noncomputable section

open scoped BigOperators

namespace Cert.KernelIdeal.Region0

open Cert.KernelIdeal Cert.KernelIdeal.Gen Cert.KernelIdeal.Payload Cert.Net Cert.RowDot
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows 5000·b … 5000·b + 4999 of a product are the product of those rows. -/
theorem prod_block (A : (⟨2, ![100000, 128]⟩ : Shape).Idx → EReal) (W : (⟨2, ![128, 128]⟩ : Shape).Idx → EReal)
    (X : (⟨2, ![5000, 128]⟩ : Shape).Idx → EReal) (W' : (⟨2, ![128, 128]⟩ : Shape).Idx → EReal)
    (p : Fin 5000) (q : Fin 128) (r : Fin 100000)
    (hX : ∀ k : Fin 128, X (ix2 p k) = A (ix2 r k)) (hW : ∀ k : Fin 128, W' (ix2 k q) = W (ix2 k q)) :
    prod (M := 5000) (K := 128) (N := 128) X W' (ix2 p q) = prod (M := 100000) (K := 128) (N := 128) A W (ix2 r q) := by
  show ∑ k : Fin 128, X (ix2 p k) * W' (ix2 k q) = ∑ k : Fin 128, A (ix2 r k) * W (ix2 k q)
  exact Finset.sum_congr rfl fun k _ => by rw [hX k, hW k]

/-- The printed index maps over the twenty grid points: the feature block and the result block of point t are
    row-block t, column-block 0; the weight matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the launch found. -/
theorem flushed_eq (c : Dev nD) (t : Fin cfg0.N) :
    (dat0 V c).flushed 2 t = ((cfg0.win 2).blk t).view.read (Elt Ideal)
      (prod (M := 100000) (K := 128) (N := 128) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay0_eq]
  obtain ⟨e00, e01, e10, e11, e20, e21⟩ := idx_facts t
  have ht : t.val < 20 := Nat.lt_of_lt_of_eq t.isLt N_0
  funext j
  obtain ⟨p, q, rfl⟩ : ∃ (p : Fin 5000) (q : Fin 128), j = ix2 p q := ⟨j 0, j 1, eq_ix2 j⟩
  have hr : t.val * 5000 + p.val < 100000 := by have := p.isLt; omega
  refine (prod_block (V c (Pipeline.arrRef spec0 0)) (V c (Pipeline.arrRef spec0 1)) (iblk0 V c 0 t) (iblk0 V c 1 t)
    p q ⟨t.val * 5000 + p.val, hr⟩ (fun k => ?_) (fun k => ?_)).trans ?_
  · show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show _ = prod (M := 100000) (K := 128) (N := 128) (V c (Pipeline.arrRef spec0 0)) (V c (Pipeline.arrRef spec0 1))
      (((cfg0.win 2).blk t).view.emb (ix2 p q))
    refine congrArg (prod (M := 100000) (K := 128) (N := 128) (V c (Pipeline.arrRef spec0 0)) (V c (Pipeline.arrRef spec0 1)))
      (funext fun a => Fin.ext ?_)
    match a with
    | ⟨0, _⟩ => show t.val * 5000 + p.val = win0_2.index t (0 : Fin 2) * 5000 + 1 * p.val; omega
    | ⟨1, _⟩ => show q.val = win0_2.index t (1 : Fin 2) * 128 + 1 * q.val; omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Every index of the result array is in some point's block: row r is in block r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e20, e21⟩ := idx_facts t
  have e20' : win0_2.index t (0 : Fin 2) = (i 0).val / 5000 := e20
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the result array holds the whole product of the feature array and the weight matrix as the
    launch found them. -/
theorem array_eq (c : Dev nD) :
    (dat0 V c).arrAt 2 cfg0.N
      = prod (M := 100000) (K := 128) (N := 128) (V c (Pipeline.arrRef spec0 0)) (V c (Pipeline.arrRef spec0 1)) :=
  (dat0 V c).arrAt_eq_of_cover 2 _ (fun t _ => flushed_eq V c t) (cover)

end Cert.KernelIdeal.Region0

end
-- ==== Proof.Region1.lean ====
/-
  Launch 1 of the four: one graph-convolution layer's product, block by block.

  The grid has twenty points.  Point t reads rows 5000·t … 5000·t + 4999 of the 100000×128 feature array and the whole
  128×128 weight matrix, and writes rows 5000·t … 5000·t + 4999 of the result.  Since entry (p, q) of a product needs
  only row p of the left operand, what point t writes back is block t of the whole product; the twenty blocks tile
  the result array, so after the launch the array holds the whole product of the two arrays as the launch found them.
-/
import proofs.«178841_j5299989643753_1_alg».proof.Proof.Gen.KernelIdeal.Frame
import proofs.«178841_j5299989643753_1_alg».proof.Proof.Product

set_option maxRecDepth 16384

noncomputable section

open scoped BigOperators

namespace Cert.KernelIdeal.Region1

open Cert.KernelIdeal Cert.KernelIdeal.Gen Cert.KernelIdeal.Payload Cert.Net Cert.RowDot
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows 5000·b … 5000·b + 4999 of a product are the product of those rows. -/
theorem prod_block (A : (⟨2, ![100000, 128]⟩ : Shape).Idx → EReal) (W : (⟨2, ![128, 128]⟩ : Shape).Idx → EReal)
    (X : (⟨2, ![5000, 128]⟩ : Shape).Idx → EReal) (W' : (⟨2, ![128, 128]⟩ : Shape).Idx → EReal)
    (p : Fin 5000) (q : Fin 128) (r : Fin 100000)
    (hX : ∀ k : Fin 128, X (ix2 p k) = A (ix2 r k)) (hW : ∀ k : Fin 128, W' (ix2 k q) = W (ix2 k q)) :
    prod (M := 5000) (K := 128) (N := 128) X W' (ix2 p q) = prod (M := 100000) (K := 128) (N := 128) A W (ix2 r q) := by
  show ∑ k : Fin 128, X (ix2 p k) * W' (ix2 k q) = ∑ k : Fin 128, A (ix2 r k) * W (ix2 k q)
  exact Finset.sum_congr rfl fun k _ => by rw [hX k, hW k]

/-- The printed index maps over the twenty grid points: the feature block and the result block of point t are
    row-block t, column-block 0; the weight matrix is one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays the launch found. -/
theorem flushed_eq (c : Dev nD) (t : Fin cfg1.N) :
    (dat1 V c).flushed 2 t = ((cfg1.win 2).blk t).view.read (Elt Ideal)
      (prod (M := 100000) (K := 128) (N := 128) (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  rw [pay1_eq]
  obtain ⟨e00, e01, e10, e11, e20, e21⟩ := idx_facts t
  have ht : t.val < 20 := Nat.lt_of_lt_of_eq t.isLt N_1
  funext j
  obtain ⟨p, q, rfl⟩ : ∃ (p : Fin 5000) (q : Fin 128), j = ix2 p q := ⟨j 0, j 1, eq_ix2 j⟩
  have hr : t.val * 5000 + p.val < 100000 := by have := p.isLt; omega
  refine (prod_block (V c (Pipeline.arrRef spec1 0)) (V c (Pipeline.arrRef spec1 1)) (iblk1 V c 0 t) (iblk1 V c 1 t)
    p q ⟨t.val * 5000 + p.val, hr⟩ (fun k => ?_) (fun k => ?_)).trans ?_
  · show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c (Pipeline.arrRef spec1 1) (((cfg1.win 1).blk t).view.emb (ix2 k q)) = _
    refine congrArg (V c (Pipeline.arrRef spec1 1)) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show _ = prod (M := 100000) (K := 128) (N := 128) (V c (Pipeline.arrRef spec1 0)) (V c (Pipeline.arrRef spec1 1))
      (((cfg1.win 2).blk t).view.emb (ix2 p q))
    refine congrArg (prod (M := 100000) (K := 128) (N := 128) (V c (Pipeline.arrRef spec1 0)) (V c (Pipeline.arrRef spec1 1)))
      (funext fun a => Fin.ext ?_)
    match a with
    | ⟨0, _⟩ => show t.val * 5000 + p.val = win1_2.index t (0 : Fin 2) * 5000 + 1 * p.val; omega
    | ⟨1, _⟩ => show q.val = win1_2.index t (1 : Fin 2) * 128 + 1 * q.val; omega

/-- An index of the result array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- Every index of the result array is in some point's block: row r is in block r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, e20, e21⟩ := idx_facts t
  have e20' : win1_2.index t (0 : Fin 2) = (i 0).val / 5000 := e20
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch the result array holds the whole product of the feature array and the weight matrix as the
    launch found them. -/
theorem array_eq (c : Dev nD) :
    (dat1 V c).arrAt 2 cfg1.N
      = prod (M := 100000) (K := 128) (N := 128) (V c (Pipeline.arrRef spec1 0)) (V c (Pipeline.arrRef spec1 1)) :=
  (dat1 V c).arrAt_eq_of_cover 2 _ (fun t _ => flushed_eq V c t) (cover)

end Cert.KernelIdeal.Region1

end
-- ==== Proof.Region2.lean ====
/-
  Launch 2 of the four: one graph-convolution layer's product, block by block.

  The grid has twenty points.  Point t reads rows 5000·t … 5000·t + 4999 of the 100000×128 feature array and the whole
  128×128 weight matrix, and writes rows 5000·t … 5000·t + 4999 of the result.  Since entry (p, q) of a product needs
  only row p of the left operand, what point t writes back is block t of the whole product; the twenty blocks tile
  the result array, so after the launch the array holds the whole product of the two arrays as the launch found them.
-/
import proofs.«178841_j5299989643753_1_alg».proof.Proof.Gen.KernelIdeal.Frame
import proofs.«178841_j5299989643753_1_alg».proof.Proof.Product

set_option maxRecDepth 16384

noncomputable section

open scoped BigOperators

namespace Cert.KernelIdeal.Region2

open Cert.KernelIdeal Cert.KernelIdeal.Gen Cert.KernelIdeal.Payload Cert.Net Cert.RowDot
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows 5000·b … 5000·b + 4999 of a product are the product of those rows. -/
theorem prod_block (A : (⟨2, ![100000, 128]⟩ : Shape).Idx → EReal) (W : (⟨2, ![128, 128]⟩ : Shape).Idx → EReal)
    (X : (⟨2, ![5000, 128]⟩ : Shape).Idx → EReal) (W' : (⟨2, ![128, 128]⟩ : Shape).Idx → EReal)
    (p : Fin 5000) (q : Fin 128) (r : Fin 100000)
    (hX : ∀ k : Fin 128, X (ix2 p k) = A (ix2 r k)) (hW : ∀ k : Fin 128, W' (ix2 k q) = W (ix2 k q)) :
    prod (M := 5000) (K := 128) (N := 128) X W' (ix2 p q) = prod (M := 100000) (K := 128) (N := 128) A W (ix2 r q) := by
  show ∑ k : Fin 128, X (ix2 p k) * W' (ix2 k q) = ∑ k : Fin 128, A (ix2 r k) * W (ix2 k q)
  exact Finset.sum_congr rfl fun k _ => by rw [hX k, hW k]

/-- The printed index maps over the twenty grid points: the feature block and the result block of point t are
    row-block t, column-block 0; the weight matrix is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 2000000 in
/-- What point t writes back is block t of the whole product of the arrays the launch found. -/
theorem flushed_eq (c : Dev nD) (t : Fin cfg2.N) :
    (dat2 V c).flushed 2 t = ((cfg2.win 2).blk t).view.read (Elt Ideal)
      (prod (M := 100000) (K := 128) (N := 128) (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [pay2_eq]
  obtain ⟨e00, e01, e10, e11, e20, e21⟩ := idx_facts t
  have ht : t.val < 20 := Nat.lt_of_lt_of_eq t.isLt N_2
  funext j
  obtain ⟨p, q, rfl⟩ : ∃ (p : Fin 5000) (q : Fin 128), j = ix2 p q := ⟨j 0, j 1, eq_ix2 j⟩
  have hr : t.val * 5000 + p.val < 100000 := by have := p.isLt; omega
  refine (prod_block (V c (Pipeline.arrRef spec2 0)) (V c (Pipeline.arrRef spec2 1)) (iblk2 V c 0 t) (iblk2 V c 1 t)
    p q ⟨t.val * 5000 + p.val, hr⟩ (fun k => ?_) (fun k => ?_)).trans ?_
  · show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c (Pipeline.arrRef spec2 1) (((cfg2.win 1).blk t).view.emb (ix2 k q)) = _
    refine congrArg (V c (Pipeline.arrRef spec2 1)) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · show _ = prod (M := 100000) (K := 128) (N := 128) (V c (Pipeline.arrRef spec2 0)) (V c (Pipeline.arrRef spec2 1))
      (((cfg2.win 2).blk t).view.emb (ix2 p q))
    refine congrArg (prod (M := 100000) (K := 128) (N := 128) (V c (Pipeline.arrRef spec2 0)) (V c (Pipeline.arrRef spec2 1)))
      (funext fun a => Fin.ext ?_)
    match a with
    | ⟨0, _⟩ => show t.val * 5000 + p.val = win2_2.index t (0 : Fin 2) * 5000 + 1 * p.val; omega
    | ⟨1, _⟩ => show q.val = win2_2.index t (1 : Fin 2) * 128 + 1 * q.val; omega

/-- An index of the result array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole (Pipeline.arrRef spec2 2)).slice (win2_2.rect t)).set ↔ _
  rw [View.set_slice_whole, Rect.mem_set_unit]
  exact Iff.rfl

/-- Every index of the result array is in some point's block: row r is in block r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, e20, e21⟩ := idx_facts t
  have e20' : win2_2.index t (0 : Fin 2) = (i 0).val / 5000 := e20
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

set_option maxHeartbeats 2000000 in
/-- After the launch the result array holds the whole product of the feature array and the weight matrix as the
    launch found them. -/
theorem array_eq (c : Dev nD) :
    (dat2 V c).arrAt 2 cfg2.N
      = prod (M := 100000) (K := 128) (N := 128) (V c (Pipeline.arrRef spec2 0)) (V c (Pipeline.arrRef spec2 1)) :=
  (dat2 V c).arrAt_eq_of_cover 2 _ (fun t _ => flushed_eq V c t) (cover)

end Cert.KernelIdeal.Region2

end
-- ==== Proof.Region3.lean ====
/-
  The last launch: the classifier.

  Its grid is one point, and each of its four windows is its whole array: the 512×128 pooled features, the 128×10
  class matrix, the bias of ten numbers and the 512×10 result.  The body multiplies the features by the matrix and
  adds the bias along every row, so after the launch the result array holds that affine map of the three arrays as
  the launch found them.
-/
import proofs.«178841_j5299989643753_1_alg».proof.Proof.Gen.KernelIdeal.Frame
import proofs.«178841_j5299989643753_1_alg».proof.Proof.Product

set_option maxRecDepth 16384

noncomputable section

open scoped BigOperators

namespace Cert.KernelIdeal.Region3

open Cert.KernelIdeal Cert.KernelIdeal.Gen Cert.KernelIdeal.Payload Cert.Net Cert.RowDot
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The affine map at an entry depends only on row r of the features, column q of the matrix and entry q of the bias. -/
theorem affine_congr (A X : (⟨2, ![512, 128]⟩ : Shape).Idx → EReal) (W W' : (⟨2, ![128, 10]⟩ : Shape).Idx → EReal)
    (b b' : (⟨1, ![10]⟩ : Shape).Idx → EReal) (r : Fin 512) (q : Fin 10)
    (hX : ∀ k : Fin 128, X (ix2 r k) = A (ix2 r k)) (hW : ∀ k : Fin 128, W' (ix2 k q) = W (ix2 k q))
    (hb : b' (ix1 q) = b (ix1 q)) :
    affine (M := 512) (K := 128) (N := 10) X W' b' (ix2 r q) = affine (M := 512) (K := 128) (N := 10) A W b (ix2 r q) := by
  show (∑ k : Fin 128, X (ix2 r k) * W' (ix2 k q)) + b' (ix1 q) = (∑ k : Fin 128, A (ix2 r k) * W (ix2 k q)) + b (ix1 q)
  rw [hb]
  exact congrArg (· + b (ix1 q)) (Finset.sum_congr rfl fun k _ => by rw [hX k, hW k])

/-- The printed index maps at the one grid point: every window is block 0 on every axis. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0 :=
  (by decide +kernel : ∀ t : Fin grid3.N, _)

/-- What the one point writes back is the affine map of the arrays the launch found. -/
theorem flushed_eq (c : Dev nD) (t : Fin cfg3.N) :
    (dat3 V c).flushed 3 t = ((cfg3.win 3).blk t).view.read (Elt Ideal)
      (affine (M := 512) (K := 128) (N := 10) (V c (Pipeline.arrRef spec3 0)) (V c (Pipeline.arrRef spec3 1))
        (V c (Pipeline.arrRef spec3 2))) := by
  show (cfg3.win 3).cut (grid3.coords t) ((dat3 V c).after 3 t) = _
  rw [after3_3]
  unfold out3_3
  rw [View.canon_unit_zero hz]
  simp only [View.ld_unit_zero (S := S512x128) hz, View.ld_unit_zero (S := S128x10) hz, View.ld_unit_zero (S := S10) hz1]
  rw [pay3_eq]
  obtain ⟨e00, e01, e10, e11, e20, e30, e31⟩ := idx_facts t
  funext j
  obtain ⟨r, q, rfl⟩ : ∃ (r : Fin 512) (q : Fin 10), j = ix2 r q := ⟨j 0, j 1, eq_ix2 j⟩
  refine (affine_congr (V c (Pipeline.arrRef spec3 0)) (iblk3 V c 0 t) (V c (Pipeline.arrRef spec3 1)) (iblk3 V c 1 t)
    (V c (Pipeline.arrRef spec3 2)) (iblk3 V c 2 t) r q (fun k => ?_) (fun k => ?_) ?_).trans ?_
  · show V c (Pipeline.arrRef spec3 0) (((cfg3.win 0).blk t).view.emb (ix2 r k)) = _
    refine congrArg (V c (Pipeline.arrRef spec3 0)) (funext fun a => Fin.ext ?_)
    match a with
    | ⟨0, _⟩ => show win3_0.index t (0 : Fin 2) * 512 + 1 * r.val = r.val; omega
    | ⟨1, _⟩ => show win3_0.index t (1 : Fin 2) * 128 + 1 * k.val = k.val; omega
  · show V c (Pipeline.arrRef spec3 1) (((cfg3.win 1).blk t).view.emb (ix2 k q)) = _
    refine congrArg (V c (Pipeline.arrRef spec3 1)) (funext fun a => Fin.ext ?_)
    match a with
    | ⟨0, _⟩ => show win3_1.index t (0 : Fin 2) * 128 + 1 * k.val = k.val; omega
    | ⟨1, _⟩ => show win3_1.index t (1 : Fin 2) * 10 + 1 * q.val = q.val; omega
  · show V c (Pipeline.arrRef spec3 2) (((cfg3.win 2).blk t).view.emb (ix1 q)) = _
    refine congrArg (V c (Pipeline.arrRef spec3 2)) (funext fun a => Fin.ext ?_)
    match a with
    | ⟨0, _⟩ => show win3_2.index t (0 : Fin 1) * 10 + 1 * q.val = q.val; omega
  · show _ = affine (M := 512) (K := 128) (N := 10) (V c (Pipeline.arrRef spec3 0)) (V c (Pipeline.arrRef spec3 1))
      (V c (Pipeline.arrRef spec3 2)) (((cfg3.win 3).blk t).view.emb (ix2 r q))
    refine congrArg (affine (M := 512) (K := 128) (N := 10) (V c (Pipeline.arrRef spec3 0)) (V c (Pipeline.arrRef spec3 1))
      (V c (Pipeline.arrRef spec3 2))) (funext fun a => Fin.ext ?_)
    match a with
    | ⟨0, _⟩ => show r.val = win3_3.index t (0 : Fin 2) * 512 + 1 * r.val; omega
    | ⟨1, _⟩ => show q.val = win3_3.index t (1 : Fin 2) * 10 + 1 * q.val; omega

/-- An index of the result array is in the point's block iff each coordinate is in the block's range on its axis. -/
theorem mem_blk (t : Fin cfg3.N) (i : S512x10.Idx) :
    i ∈ ((cfg3.win 3).blk t).view.set ↔ ∀ a : Fin 2, win3_3.index t a * S512x10.size a ≤ (i a).val
      ∧ (i a).val < win3_3.index t a * S512x10.size a + S512x10.size a := by
  show i ∈ ((View.whole (Pipeline.arrRef spec3 3)).slice (win3_3.rect t)).set ↔ _
  rw [View.set_slice_whole, Rect.mem_set_unit]
  exact Iff.rfl

/-- The one block is the whole result array. -/
theorem cover (i : S512x10.Idx) :
    ∃ t : Fin cfg3.N, (cfg3.win 3).flush t = true ∧ i ∈ ((cfg3.win 3).blk t).view.set := by
  have hi0 : (i 0).val < 512 := (i 0).isLt
  have hi1 : (i 1).val < 10 := (i 1).isLt
  obtain ⟨-, -, -, -, -, e30, e31⟩ := idx_facts t3_0
  refine ⟨t3_0, flush3_3 t3_0, ?_⟩
  rw [mem_blk]
  intro a
  match a with
  | ⟨0, _⟩ => show win3_3.index t3_0 (0 : Fin 2) * 512 ≤ (i 0).val ∧ (i 0).val < win3_3.index t3_0 (0 : Fin 2) * 512 + 512; omega
  | ⟨1, _⟩ => show win3_3.index t3_0 (1 : Fin 2) * 10 ≤ (i 1).val ∧ (i 1).val < win3_3.index t3_0 (1 : Fin 2) * 10 + 10; omega

/-- After the launch the result array holds the affine map of the pooled features, the class matrix and the bias as
    the launch found them. -/
theorem array_eq (c : Dev nD) :
    (dat3 V c).arrAt 3 cfg3.N
      = affine (M := 512) (K := 128) (N := 10) (V c (Pipeline.arrRef spec3 0)) (V c (Pipeline.arrRef spec3 1))
          (V c (Pipeline.arrRef spec3 2)) :=
  (dat3 V c).arrAt_eq_of_cover 3 _ (fun t _ => flushed_eq V c t) (cover)

end Cert.KernelIdeal.Region3

end
-- ==== Proof.Stages.lean ====
/-
  The idealized kernel's buffers, segment by segment, are the reference's stages.

  Both programs are the same three graph-convolution layers, a mean pooling over graphs and a linear classifier, and
  outside the four products they are the same host operations in the same order on the same operands: the degree
  count and its inverse square root, the gathers and the accumulating scatters over the edges, the self-loop term,
  the bias, the rectifier, the pooling sums and counts, the quotient.  So the proof walks the kernel's twelve
  segments.  After a host stretch a buffer holds the stretch's operations applied to what the stretch found, which is
  the reference's stage of the same number once the buffers it found are the reference's stages; after a launch the
  result array holds the whole product (or, last, the affine map) of the arrays the launch found, which is the
  reference's dot_general of them (plus its bias).  A handful of buffers — the inverse square root of the degrees and
  the arguments — are read by later segments and written by none after the first stretch; they are carried along
  unchanged.
-/
import proofs.«178841_j5299989643753_1_alg».proof.Proof.Gen.KernelIdeal.Frame
import proofs.«178841_j5299989643753_1_alg».proof.Proof.Gen.ReferenceIdeal.Read
import proofs.«178841_j5299989643753_1_alg».proof.Proof.Product
import proofs.«178841_j5299989643753_1_alg».proof.Proof.Region0
import proofs.«178841_j5299989643753_1_alg».proof.Proof.Region1
import proofs.«178841_j5299989643753_1_alg».proof.Proof.Region2
import proofs.«178841_j5299989643753_1_alg».proof.Proof.Region3
import Idealize.ShloMosaic.Lib.StableHlo.Run

set_option maxRecDepth 16384

noncomputable section

open scoped BigOperators

namespace Cert.Bridge

open Cert.KernelIdeal Cert.KernelIdeal.Gen Cert.Net
open Cert.ReferenceIdeal.Read (val_main_v6 val_main_v7 val_main_v44 val_main_v45 val_main_v82 val_main_v83 val_main_v132
  val_main_v133 val_main_v134 val_main_v135 val_main_v136 val_main_v134_apply val_main_v135_apply idx_main_v134 idx_main_v135)
open Idealize.ShloMosaic Idealize.ShloMosaic.TcCoe Idealize.ShloMosaic.ValueIdx Idealize.SL.Sem Idealize.ShloMosaic.StableHlo

/-! ## The reference's products and its classifier, as the arrays of the specification -/

/-- A layer's product in the reference is the whole product of its operands. -/
theorem ref_layer_prod (A : FVec Ideal Cert.ReferenceIdeal.S100000x128 .f32) (W : FVec Ideal Cert.ReferenceIdeal.S128x128 .f32) :
    Host.dotGeneral (F := Ideal) Cert.ReferenceIdeal.dot_S100000x128_S128x128_S100000x128_1_0_0_1_n_n none A W
      = prod (M := 100000) (K := 128) (N := 128) A W :=
  dotGeneral_plain_eq (M := 100000) (K := 128) (N := 128) none A W

/-- The reference's classifier — the product of the pooled features and the class matrix, plus the bias spread to one
    row and then to every row — is the affine map of the three. -/
theorem ref_classifier (x0 : (⟨Cert.ReferenceIdeal.S100000x128, .f32⟩ : BufTy).Contents (Elt Ideal)) (x1 : (⟨Cert.ReferenceIdeal.S1600000, .i32⟩ : BufTy).Contents (Elt Ideal)) (x2 : (⟨Cert.ReferenceIdeal.S1600000, .i32⟩ : BufTy).Contents (Elt Ideal)) (x3 : (⟨Cert.ReferenceIdeal.S100000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x10, .f32⟩ : BufTy).Contents (Elt Ideal)) (x11 : (⟨Cert.ReferenceIdeal.S10, .f32⟩ : BufTy).Contents (Elt Ideal)) :
    val_main_v136 (F := Ideal) x0 x1 x2 x3 x4 x5 x6 x7 x8 x9 x10 x11
      = affine (M := 512) (K := 128) (N := 10) (val_main_v132 (F := Ideal) x0 x1 x2 x3 x4 x5 x6 x7 x8 x9) x10 x11 := by
  funext i
  show val_main_v133 (F := Ideal) x0 x1 x2 x3 x4 x5 x6 x7 x8 x9 x10 i + val_main_v135 (F := Ideal) x11 i = _
  rw [val_main_v135_apply, val_main_v134_apply]
  have hidx : idx_main_v134 (idx_main_v135 i) = ix1 (i 1) := funext fun a => Fin.ext (by match a with | ⟨0, _⟩ => rfl)
  rw [hidx]
  exact congrArg (· + x11 (ix1 (i 1)))
    (congrFun (dotGeneral_plain_eq (M := 512) (K := 128) (N := 10) none (val_main_v132 (F := Ideal) x0 x1 x2 x3 x4 x5 x6 x7 x8 x9) x10) i)

/-! ## The host stretches between the launches, at the reference's stages -/

/-- The first layer after its product, up to the rectifier: gather the products along the edges, weigh them by the
    two end nodes' inverse square-root degrees, scatter-add them to the destination nodes, add the self-loop term and
    the bias.  From buffers holding the reference's stages the stretch leaves the reference's stage. -/
theorem layer1 (Wv : Valuation τ sig (Elt Ideal)) (x0 : (⟨Cert.ReferenceIdeal.S100000x128, .f32⟩ : BufTy).Contents (Elt Ideal)) (x1 : (⟨Cert.ReferenceIdeal.S1600000, .i32⟩ : BufTy).Contents (Elt Ideal)) (x2 : (⟨Cert.ReferenceIdeal.S1600000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal))
    (h7 : Wv (Proc.devRef .tc main_v7) = val_main_v7 (F := Ideal) x0 x4)
    (h6 : Wv (Proc.devRef .tc main_v6) = val_main_v6 (F := Ideal) x2)
    (h1 : Wv (Proc.devRef .tc main_arg1) = x1) (h2 : Wv (Proc.devRef .tc main_arg2) = x2)
    (h5 : Wv (Proc.devRef .tc main_arg5) = x5) :
    StableHlo.after hostOps1 Wv (Proc.devRef .tc main_v43) = Cert.ReferenceIdeal.Read.val_main_v43 (F := Ideal) x0 x1 x2 x4 x5 := by
  dsimp only [hostOps1]
  after_results_simp
  rw [h7, h6, h1, h2, h5]
  rfl

/-- The rectifier after the first layer: the maximum with zero, entry by entry. -/
theorem relu1 (Wv : Valuation τ sig (Elt Ideal)) (X : (⟨S100000x128, .f32⟩ : BufTy).Contents (Elt Ideal))
    (h : Wv (Proc.devRef .tc main_v43) = X) :
    StableHlo.after hostOps1_1 Wv (Proc.devRef .tc main_v44)
      = maximumf (F := Ideal) X (broadcastInDim S100000x128 ![] bcast_S_S100000x128 (constant (F := Ideal) S_ .f32 0x00000000#32)) := by
  dsimp only [hostOps1_1]
  after_results_simp
  rw [h]
  rfl

/-- The first layer's output. -/
theorem stretch1 (Wv : Valuation τ sig (Elt Ideal)) (x0 : (⟨Cert.ReferenceIdeal.S100000x128, .f32⟩ : BufTy).Contents (Elt Ideal)) (x1 : (⟨Cert.ReferenceIdeal.S1600000, .i32⟩ : BufTy).Contents (Elt Ideal)) (x2 : (⟨Cert.ReferenceIdeal.S1600000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal))
    (h7 : Wv (Proc.devRef .tc main_v7) = val_main_v7 (F := Ideal) x0 x4)
    (h6 : Wv (Proc.devRef .tc main_v6) = val_main_v6 (F := Ideal) x2)
    (h1 : Wv (Proc.devRef .tc main_arg1) = x1) (h2 : Wv (Proc.devRef .tc main_arg2) = x2)
    (h5 : Wv (Proc.devRef .tc main_arg5) = x5) :
    StableHlo.after hostOps1_1 (StableHlo.after hostOps1 Wv) (Proc.devRef .tc main_v44)
      = val_main_v44 (F := Ideal) x0 x1 x2 x4 x5 :=
  (relu1 (StableHlo.after hostOps1 Wv) _ (layer1 Wv x0 x1 x2 x4 x5 h7 h6 h1 h2 h5)).trans rfl

/-- The second layer after its product, up to the rectifier: the same operations on the second layer's buffers. -/
theorem layer2 (Wv : Valuation τ sig (Elt Ideal)) (x0 : (⟨Cert.ReferenceIdeal.S100000x128, .f32⟩ : BufTy).Contents (Elt Ideal)) (x1 : (⟨Cert.ReferenceIdeal.S1600000, .i32⟩ : BufTy).Contents (Elt Ideal)) (x2 : (⟨Cert.ReferenceIdeal.S1600000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal))
    (h45 : Wv (Proc.devRef .tc main_v45) = val_main_v45 (F := Ideal) x0 x1 x2 x4 x5 x6)
    (h6 : Wv (Proc.devRef .tc main_v6) = val_main_v6 (F := Ideal) x2)
    (h1 : Wv (Proc.devRef .tc main_arg1) = x1) (h2 : Wv (Proc.devRef .tc main_arg2) = x2)
    (h7 : Wv (Proc.devRef .tc main_arg7) = x7) :
    StableHlo.after hostOps2 Wv (Proc.devRef .tc main_v81) = Cert.ReferenceIdeal.Read.val_main_v81 (F := Ideal) x0 x1 x2 x4 x5 x6 x7 := by
  dsimp only [hostOps2]
  after_results_simp
  rw [h45, h6, h1, h2, h7]
  rfl

/-- The rectifier after the second layer. -/
theorem relu2 (Wv : Valuation τ sig (Elt Ideal)) (X : (⟨S100000x128, .f32⟩ : BufTy).Contents (Elt Ideal))
    (h : Wv (Proc.devRef .tc main_v81) = X) :
    StableHlo.after hostOps2_1 Wv (Proc.devRef .tc main_v82)
      = maximumf (F := Ideal) X (broadcastInDim S100000x128 ![] bcast_S_S100000x128 (constant (F := Ideal) S_ .f32 0x00000000#32)) := by
  dsimp only [hostOps2_1]
  after_results_simp
  rw [h]
  rfl

/-- The second layer's output. -/
theorem stretch2 (Wv : Valuation τ sig (Elt Ideal)) (x0 : (⟨Cert.ReferenceIdeal.S100000x128, .f32⟩ : BufTy).Contents (Elt Ideal)) (x1 : (⟨Cert.ReferenceIdeal.S1600000, .i32⟩ : BufTy).Contents (Elt Ideal)) (x2 : (⟨Cert.ReferenceIdeal.S1600000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal))
    (h45 : Wv (Proc.devRef .tc main_v45) = val_main_v45 (F := Ideal) x0 x1 x2 x4 x5 x6)
    (h6 : Wv (Proc.devRef .tc main_v6) = val_main_v6 (F := Ideal) x2)
    (h1 : Wv (Proc.devRef .tc main_arg1) = x1) (h2 : Wv (Proc.devRef .tc main_arg2) = x2)
    (h7 : Wv (Proc.devRef .tc main_arg7) = x7) :
    StableHlo.after hostOps2_1 (StableHlo.after hostOps2 Wv) (Proc.devRef .tc main_v82)
      = val_main_v82 (F := Ideal) x0 x1 x2 x4 x5 x6 x7 :=
  (relu2 (StableHlo.after hostOps2 Wv) _ (layer2 Wv x0 x1 x2 x4 x5 x6 x7 h45 h6 h1 h2 h7)).trans rfl

/-- The third layer after its product, up to the rectifier. -/
theorem layer3 (Wv : Valuation τ sig (Elt Ideal)) (x0 : (⟨Cert.ReferenceIdeal.S100000x128, .f32⟩ : BufTy).Contents (Elt Ideal)) (x1 : (⟨Cert.ReferenceIdeal.S1600000, .i32⟩ : BufTy).Contents (Elt Ideal)) (x2 : (⟨Cert.ReferenceIdeal.S1600000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal))
    (h83 : Wv (Proc.devRef .tc main_v83) = val_main_v83 (F := Ideal) x0 x1 x2 x4 x5 x6 x7 x8)
    (h6 : Wv (Proc.devRef .tc main_v6) = val_main_v6 (F := Ideal) x2)
    (h1 : Wv (Proc.devRef .tc main_arg1) = x1) (h2 : Wv (Proc.devRef .tc main_arg2) = x2)
    (h9 : Wv (Proc.devRef .tc main_arg9) = x9) :
    StableHlo.after hostOps3 Wv (Proc.devRef .tc main_v119) = Cert.ReferenceIdeal.Read.val_main_v119 (F := Ideal) x0 x1 x2 x4 x5 x6 x7 x8 x9 := by
  dsimp only [hostOps3]
  after_results_simp
  rw [h83, h6, h1, h2, h9]
  rfl

/-- The rectifier after the third layer. -/
theorem relu3 (Wv : Valuation τ sig (Elt Ideal)) (X : (⟨S100000x128, .f32⟩ : BufTy).Contents (Elt Ideal))
    (h : Wv (Proc.devRef .tc main_v119) = X) :
    StableHlo.after hostOps3_1 Wv (Proc.devRef .tc main_v120)
      = maximumf (F := Ideal) X (broadcastInDim S100000x128 ![] bcast_S_S100000x128 (constant (F := Ideal) S_ .f32 0x00000000#32)) := by
  dsimp only [hostOps3_1]
  after_results_simp
  rw [h]
  rfl

/-- The mean pooling over graphs: the per-graph sums of the node features over the per-graph node counts (at least
    one). -/
theorem pool (Wv : Valuation τ sig (Elt Ideal)) (x0 : (⟨Cert.ReferenceIdeal.S100000x128, .f32⟩ : BufTy).Contents (Elt Ideal)) (x1 : (⟨Cert.ReferenceIdeal.S1600000, .i32⟩ : BufTy).Contents (Elt Ideal)) (x2 : (⟨Cert.ReferenceIdeal.S1600000, .i32⟩ : BufTy).Contents (Elt Ideal)) (x3 : (⟨Cert.ReferenceIdeal.S100000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal))
    (h120 : Wv (Proc.devRef .tc main_v120) = Cert.ReferenceIdeal.Read.val_main_v120 (F := Ideal) x0 x1 x2 x4 x5 x6 x7 x8 x9)
    (h3 : Wv (Proc.devRef .tc main_arg3) = x3) :
    StableHlo.after hostOps3_2 Wv (Proc.devRef .tc main_v132) = val_main_v132 (F := Ideal) x0 x1 x2 x3 x4 x5 x6 x7 x8 x9 := by
  dsimp only [hostOps3_2]
  after_results_simp
  rw [h120, h3]
  rfl

/-- The pooled features. -/
theorem stretch3 (Wv : Valuation τ sig (Elt Ideal)) (x0 : (⟨Cert.ReferenceIdeal.S100000x128, .f32⟩ : BufTy).Contents (Elt Ideal)) (x1 : (⟨Cert.ReferenceIdeal.S1600000, .i32⟩ : BufTy).Contents (Elt Ideal)) (x2 : (⟨Cert.ReferenceIdeal.S1600000, .i32⟩ : BufTy).Contents (Elt Ideal)) (x3 : (⟨Cert.ReferenceIdeal.S100000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal))
    (h83 : Wv (Proc.devRef .tc main_v83) = val_main_v83 (F := Ideal) x0 x1 x2 x4 x5 x6 x7 x8)
    (h6 : Wv (Proc.devRef .tc main_v6) = val_main_v6 (F := Ideal) x2)
    (h1 : Wv (Proc.devRef .tc main_arg1) = x1) (h2 : Wv (Proc.devRef .tc main_arg2) = x2)
    (h3 : Wv (Proc.devRef .tc main_arg3) = x3) (h9 : Wv (Proc.devRef .tc main_arg9) = x9)
    (h3' : StableHlo.after hostOps3_1 (StableHlo.after hostOps3 Wv) (Proc.devRef .tc main_arg3) = x3) :
    StableHlo.after hostOps3_2 (StableHlo.after hostOps3_1 (StableHlo.after hostOps3 Wv)) (Proc.devRef .tc main_v132)
      = val_main_v132 (F := Ideal) x0 x1 x2 x3 x4 x5 x6 x7 x8 x9 :=
  pool _ x0 x1 x2 x3 x4 x5 x6 x7 x8 x9
    ((relu3 (StableHlo.after hostOps3 Wv) _ (layer3 Wv x0 x1 x2 x4 x5 x6 x7 x8 x9 h83 h6 h1 h2 h9)).trans rfl) h3'

/-! ## The buffers carried along -/

/-- The buffers later segments read and no segment after the first stretch writes: the inverse square root of the
    degrees, and every argument but the node features and the first weight matrix. -/
def keep : List (Ref sig .tc) :=
  [main_v6, main_arg1, main_arg2, main_arg3, main_arg5, main_arg6, main_arg7, main_arg8, main_arg9, main_arg10, main_arg11]

/-- Two contents of a core's buffers agree on the carried buffers.  (A host stretch keeps them because it writes none of
    them; a launch keeps them because they are either none of its arrays or one of its input arrays, which it only
    reads.) -/
def Same (W W' : Valuation τ sig (Elt Ideal)) : Prop :=
  ∀ b ∈ keep, W (Proc.devRef .tc b) = W' (Proc.devRef .tc b)

set_option maxHeartbeats 2000000 in
theorem same_ops1 (Wv : Valuation τ sig (Elt Ideal)) : Same (StableHlo.after hostOps1 Wv) Wv := by
  intro b hb
  simp only [keep, List.mem_cons, List.mem_singleton, List.not_mem_nil, or_false] at hb
  rcases hb with rfl | rfl | rfl | rfl | rfl | rfl | rfl | rfl | rfl | rfl | rfl
  all_goals (dsimp only [hostOps1]; after_results_simp <;> rfl)
set_option maxHeartbeats 2000000 in
theorem same_ops1_1 (Wv : Valuation τ sig (Elt Ideal)) : Same (StableHlo.after hostOps1_1 Wv) Wv := by
  intro b hb
  simp only [keep, List.mem_cons, List.mem_singleton, List.not_mem_nil, or_false] at hb
  rcases hb with rfl | rfl | rfl | rfl | rfl | rfl | rfl | rfl | rfl | rfl | rfl
  all_goals (dsimp only [hostOps1_1]; after_results_simp <;> rfl)
set_option maxHeartbeats 2000000 in
theorem same_ops2 (Wv : Valuation τ sig (Elt Ideal)) : Same (StableHlo.after hostOps2 Wv) Wv := by
  intro b hb
  simp only [keep, List.mem_cons, List.mem_singleton, List.not_mem_nil, or_false] at hb
  rcases hb with rfl | rfl | rfl | rfl | rfl | rfl | rfl | rfl | rfl | rfl | rfl
  all_goals (dsimp only [hostOps2]; after_results_simp <;> rfl)
set_option maxHeartbeats 2000000 in
theorem same_ops2_1 (Wv : Valuation τ sig (Elt Ideal)) : Same (StableHlo.after hostOps2_1 Wv) Wv := by
  intro b hb
  simp only [keep, List.mem_cons, List.mem_singleton, List.not_mem_nil, or_false] at hb
  rcases hb with rfl | rfl | rfl | rfl | rfl | rfl | rfl | rfl | rfl | rfl | rfl
  all_goals (dsimp only [hostOps2_1]; after_results_simp <;> rfl)
set_option maxHeartbeats 2000000 in
theorem same_ops3 (Wv : Valuation τ sig (Elt Ideal)) : Same (StableHlo.after hostOps3 Wv) Wv := by
  intro b hb
  simp only [keep, List.mem_cons, List.mem_singleton, List.not_mem_nil, or_false] at hb
  rcases hb with rfl | rfl | rfl | rfl | rfl | rfl | rfl | rfl | rfl | rfl | rfl
  all_goals (dsimp only [hostOps3]; after_results_simp <;> rfl)
set_option maxHeartbeats 2000000 in
theorem same_ops3_1 (Wv : Valuation τ sig (Elt Ideal)) : Same (StableHlo.after hostOps3_1 Wv) Wv := by
  intro b hb
  simp only [keep, List.mem_cons, List.mem_singleton, List.not_mem_nil, or_false] at hb
  rcases hb with rfl | rfl | rfl | rfl | rfl | rfl | rfl | rfl | rfl | rfl | rfl
  all_goals (dsimp only [hostOps3_1]; after_results_simp <;> rfl)
set_option maxHeartbeats 2000000 in
theorem same_ops3_2 (Wv : Valuation τ sig (Elt Ideal)) : Same (StableHlo.after hostOps3_2 Wv) Wv := by
  intro b hb
  simp only [keep, List.mem_cons, List.mem_singleton, List.not_mem_nil, or_false] at hb
  rcases hb with rfl | rfl | rfl | rfl | rfl | rfl | rfl | rfl | rfl | rfl | rfl
  all_goals (dsimp only [hostOps3_2]; after_results_simp <;> rfl)

variable (m : (ℓ : Loc nD τ sig) → Buf (Elt Ideal) ℓ) (ρ : Dev nD → PrngReg) (c : Dev nD)

/-! ### The first stretch, from the launch memory -/

/-- The inverse square root of the degrees (one plus the number of edges into each node). -/
theorem w1_v6 : W1 m ρ c (Proc.devRef .tc main_v6) = val_main_v6 (F := Ideal) (m ((c.tc : Thread nD τ).loc main_arg2)) := by
  show StableHlo.after hostOps0 (W0 m ρ c) (Proc.devRef .tc main_v6) = _
  dsimp only [hostOps0]; after_results_simp <;> rfl
theorem w1_arg0 : W1 m ρ c (Proc.devRef .tc main_arg0) = (m ((c.tc : Thread nD τ).loc main_arg0)) := by
  show StableHlo.after hostOps0 (W0 m ρ c) (Proc.devRef .tc main_arg0) = _
  dsimp only [hostOps0]; after_results_simp <;> rfl
theorem w1_arg1 : W1 m ρ c (Proc.devRef .tc main_arg1) = (m ((c.tc : Thread nD τ).loc main_arg1)) := by
  show StableHlo.after hostOps0 (W0 m ρ c) (Proc.devRef .tc main_arg1) = _
  dsimp only [hostOps0]; after_results_simp <;> rfl
theorem w1_arg2 : W1 m ρ c (Proc.devRef .tc main_arg2) = (m ((c.tc : Thread nD τ).loc main_arg2)) := by
  show StableHlo.after hostOps0 (W0 m ρ c) (Proc.devRef .tc main_arg2) = _
  dsimp only [hostOps0]; after_results_simp <;> rfl
theorem w1_arg3 : W1 m ρ c (Proc.devRef .tc main_arg3) = (m ((c.tc : Thread nD τ).loc main_arg3)) := by
  show StableHlo.after hostOps0 (W0 m ρ c) (Proc.devRef .tc main_arg3) = _
  dsimp only [hostOps0]; after_results_simp <;> rfl
theorem w1_arg4 : W1 m ρ c (Proc.devRef .tc main_arg4) = (m ((c.tc : Thread nD τ).loc main_arg4)) := by
  show StableHlo.after hostOps0 (W0 m ρ c) (Proc.devRef .tc main_arg4) = _
  dsimp only [hostOps0]; after_results_simp <;> rfl
theorem w1_arg5 : W1 m ρ c (Proc.devRef .tc main_arg5) = (m ((c.tc : Thread nD τ).loc main_arg5)) := by
  show StableHlo.after hostOps0 (W0 m ρ c) (Proc.devRef .tc main_arg5) = _
  dsimp only [hostOps0]; after_results_simp <;> rfl
theorem w1_arg6 : W1 m ρ c (Proc.devRef .tc main_arg6) = (m ((c.tc : Thread nD τ).loc main_arg6)) := by
  show StableHlo.after hostOps0 (W0 m ρ c) (Proc.devRef .tc main_arg6) = _
  dsimp only [hostOps0]; after_results_simp <;> rfl
theorem w1_arg7 : W1 m ρ c (Proc.devRef .tc main_arg7) = (m ((c.tc : Thread nD τ).loc main_arg7)) := by
  show StableHlo.after hostOps0 (W0 m ρ c) (Proc.devRef .tc main_arg7) = _
  dsimp only [hostOps0]; after_results_simp <;> rfl
theorem w1_arg8 : W1 m ρ c (Proc.devRef .tc main_arg8) = (m ((c.tc : Thread nD τ).loc main_arg8)) := by
  show StableHlo.after hostOps0 (W0 m ρ c) (Proc.devRef .tc main_arg8) = _
  dsimp only [hostOps0]; after_results_simp <;> rfl
theorem w1_arg9 : W1 m ρ c (Proc.devRef .tc main_arg9) = (m ((c.tc : Thread nD τ).loc main_arg9)) := by
  show StableHlo.after hostOps0 (W0 m ρ c) (Proc.devRef .tc main_arg9) = _
  dsimp only [hostOps0]; after_results_simp <;> rfl
theorem w1_arg10 : W1 m ρ c (Proc.devRef .tc main_arg10) = (m ((c.tc : Thread nD τ).loc main_arg10)) := by
  show StableHlo.after hostOps0 (W0 m ρ c) (Proc.devRef .tc main_arg10) = _
  dsimp only [hostOps0]; after_results_simp <;> rfl
theorem w1_arg11 : W1 m ρ c (Proc.devRef .tc main_arg11) = (m ((c.tc : Thread nD τ).loc main_arg11)) := by
  show StableHlo.after hostOps0 (W0 m ρ c) (Proc.devRef .tc main_arg11) = _
  dsimp only [hostOps0]; after_results_simp <;> rfl

/-! ### Through the launches and the stretches -/

theorem same_W2 : Same (W2 m ρ c) (W1 m ρ c) := by
  intro b hb
  simp only [keep, List.mem_cons, List.mem_singleton, List.not_mem_nil, or_false] at hb
  rcases hb with rfl | rfl | rfl | rfl | rfl | rfl | rfl | rfl | rfl | rfl | rfl
  all_goals exact W2_of_ne m ρ c _ (by decide)
theorem same_W4 : Same (W4 m ρ c) (W1 m ρ c) := fun b hb =>
  ((same_ops1_1 (StableHlo.after hostOps1 (W2 m ρ c)) b hb).trans (same_ops1 (W2 m ρ c) b hb)).trans (same_W2 m ρ c b hb)
theorem same_W5 : Same (W5 m ρ c) (W1 m ρ c) := by
  intro b hb
  refine Eq.trans ?_ (same_W4 m ρ c b hb)
  simp only [keep, List.mem_cons, List.mem_singleton, List.not_mem_nil, or_false] at hb
  rcases hb with rfl | rfl | rfl | rfl | rfl | rfl | rfl | rfl | rfl | rfl | rfl
  all_goals first
    | exact W5_of_ne m ρ c _ (by decide)
    | exact (W5_arr m ρ c 1).trans (((dat1 (V4 m ρ) c).arrAt_in 1 rfl _).trans (A_eq1 (V4 m ρ) c 1))
theorem same_W7 : Same (W7 m ρ c) (W1 m ρ c) := fun b hb =>
  ((same_ops2_1 (StableHlo.after hostOps2 (W5 m ρ c)) b hb).trans (same_ops2 (W5 m ρ c) b hb)).trans (same_W5 m ρ c b hb)
theorem same_W8 : Same (W8 m ρ c) (W1 m ρ c) := by
  intro b hb
  refine Eq.trans ?_ (same_W7 m ρ c b hb)
  simp only [keep, List.mem_cons, List.mem_singleton, List.not_mem_nil, or_false] at hb
  rcases hb with rfl | rfl | rfl | rfl | rfl | rfl | rfl | rfl | rfl | rfl | rfl
  all_goals first
    | exact W8_of_ne m ρ c _ (by decide)
    | exact (W8_arr m ρ c 1).trans (((dat2 (V7 m ρ) c).arrAt_in 1 rfl _).trans (A_eq2 (V7 m ρ) c 1))
theorem same_W11 : Same (W11 m ρ c) (W1 m ρ c) := fun b hb =>
  (((same_ops3_2 (StableHlo.after hostOps3_1 (StableHlo.after hostOps3 (W8 m ρ c))) b hb).trans
    (same_ops3_1 (StableHlo.after hostOps3 (W8 m ρ c)) b hb)).trans (same_ops3 (W8 m ρ c) b hb)).trans (same_W8 m ρ c b hb)

theorem v6_of_same {Wv : Valuation τ sig (Elt Ideal)} (h : Same Wv (W1 m ρ c)) :
    Wv (Proc.devRef .tc main_v6) = val_main_v6 (F := Ideal) (m ((c.tc : Thread nD τ).loc main_arg2)) := (h main_v6 (by simp [keep])).trans (w1_v6 m ρ c)
theorem arg1_of_same {Wv : Valuation τ sig (Elt Ideal)} (h : Same Wv (W1 m ρ c)) :
    Wv (Proc.devRef .tc main_arg1) = (m ((c.tc : Thread nD τ).loc main_arg1)) := (h main_arg1 (by simp [keep])).trans (w1_arg1 m ρ c)
theorem arg2_of_same {Wv : Valuation τ sig (Elt Ideal)} (h : Same Wv (W1 m ρ c)) :
    Wv (Proc.devRef .tc main_arg2) = (m ((c.tc : Thread nD τ).loc main_arg2)) := (h main_arg2 (by simp [keep])).trans (w1_arg2 m ρ c)
theorem arg3_of_same {Wv : Valuation τ sig (Elt Ideal)} (h : Same Wv (W1 m ρ c)) :
    Wv (Proc.devRef .tc main_arg3) = (m ((c.tc : Thread nD τ).loc main_arg3)) := (h main_arg3 (by simp [keep])).trans (w1_arg3 m ρ c)
theorem arg5_of_same {Wv : Valuation τ sig (Elt Ideal)} (h : Same Wv (W1 m ρ c)) :
    Wv (Proc.devRef .tc main_arg5) = (m ((c.tc : Thread nD τ).loc main_arg5)) := (h main_arg5 (by simp [keep])).trans (w1_arg5 m ρ c)
theorem arg6_of_same {Wv : Valuation τ sig (Elt Ideal)} (h : Same Wv (W1 m ρ c)) :
    Wv (Proc.devRef .tc main_arg6) = (m ((c.tc : Thread nD τ).loc main_arg6)) := (h main_arg6 (by simp [keep])).trans (w1_arg6 m ρ c)
theorem arg7_of_same {Wv : Valuation τ sig (Elt Ideal)} (h : Same Wv (W1 m ρ c)) :
    Wv (Proc.devRef .tc main_arg7) = (m ((c.tc : Thread nD τ).loc main_arg7)) := (h main_arg7 (by simp [keep])).trans (w1_arg7 m ρ c)
theorem arg8_of_same {Wv : Valuation τ sig (Elt Ideal)} (h : Same Wv (W1 m ρ c)) :
    Wv (Proc.devRef .tc main_arg8) = (m ((c.tc : Thread nD τ).loc main_arg8)) := (h main_arg8 (by simp [keep])).trans (w1_arg8 m ρ c)
theorem arg9_of_same {Wv : Valuation τ sig (Elt Ideal)} (h : Same Wv (W1 m ρ c)) :
    Wv (Proc.devRef .tc main_arg9) = (m ((c.tc : Thread nD τ).loc main_arg9)) := (h main_arg9 (by simp [keep])).trans (w1_arg9 m ρ c)
theorem arg10_of_same {Wv : Valuation τ sig (Elt Ideal)} (h : Same Wv (W1 m ρ c)) :
    Wv (Proc.devRef .tc main_arg10) = (m ((c.tc : Thread nD τ).loc main_arg10)) := (h main_arg10 (by simp [keep])).trans (w1_arg10 m ρ c)
theorem arg11_of_same {Wv : Valuation τ sig (Elt Ideal)} (h : Same Wv (W1 m ρ c)) :
    Wv (Proc.devRef .tc main_arg11) = (m ((c.tc : Thread nD τ).loc main_arg11)) := (h main_arg11 (by simp [keep])).trans (w1_arg11 m ρ c)

/-! ## The walk -/

/-- After the first launch: the first layer's product. -/
theorem at_v7 : W2 m ρ c (Proc.devRef .tc main_v7) = val_main_v7 (F := Ideal) (m ((c.tc : Thread nD τ).loc main_arg0)) (m ((c.tc : Thread nD τ).loc main_arg4)) :=
  (W2_arr m ρ c 2).trans ((Region0.array_eq (V1 m ρ) c).trans
    ((congrArg₂ (prod (M := 100000) (K := 128) (N := 128)) (w1_arg0 m ρ c) (w1_arg4 m ρ c)).trans
      (ref_layer_prod _ _).symm))

/-- Before the second launch: the first layer's output. -/
theorem at_v44 : W4 m ρ c (Proc.devRef .tc main_v44) = val_main_v44 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
  stretch1 (W2 m ρ c) _ _ _ _ _ (at_v7 m ρ c) (v6_of_same m ρ c (same_W2 m ρ c)) (arg1_of_same m ρ c (same_W2 m ρ c))
    (arg2_of_same m ρ c (same_W2 m ρ c)) (arg5_of_same m ρ c (same_W2 m ρ c))

/-- After the second launch: the second layer's product. -/
theorem at_v45 : W5 m ρ c (Proc.devRef .tc main_v45) = val_main_v45 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) :=
  (W5_arr m ρ c 2).trans ((Region1.array_eq (V4 m ρ) c).trans
    ((congrArg₂ (prod (M := 100000) (K := 128) (N := 128)) (at_v44 m ρ c) (arg6_of_same m ρ c (same_W4 m ρ c))).trans
      (ref_layer_prod _ _).symm))

/-- Before the third launch: the second layer's output. -/
theorem at_v82 : W7 m ρ c (Proc.devRef .tc main_v82) = val_main_v82 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
  stretch2 (W5 m ρ c) _ _ _ _ _ _ _ (at_v45 m ρ c) (v6_of_same m ρ c (same_W5 m ρ c)) (arg1_of_same m ρ c (same_W5 m ρ c))
    (arg2_of_same m ρ c (same_W5 m ρ c)) (arg7_of_same m ρ c (same_W5 m ρ c))

/-- After the third launch: the third layer's product. -/
theorem at_v83 : W8 m ρ c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W8_arr m ρ c 2).trans ((Region2.array_eq (V7 m ρ) c).trans
    ((congrArg₂ (prod (M := 100000) (K := 128) (N := 128)) (at_v82 m ρ c) (arg8_of_same m ρ c (same_W7 m ρ c))).trans
      (ref_layer_prod _ _).symm))

/-- Before the last launch: the pooled features. -/
theorem at_v132 : W11 m ρ c (Proc.devRef .tc main_v132) = val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  stretch3 (W8 m ρ c) _ _ _ _ _ _ _ _ _ _ (at_v83 m ρ c) (v6_of_same m ρ c (same_W8 m ρ c)) (arg1_of_same m ρ c (same_W8 m ρ c))
    (arg2_of_same m ρ c (same_W8 m ρ c)) (arg3_of_same m ρ c (same_W8 m ρ c)) (arg9_of_same m ρ c (same_W8 m ρ c))
    (((same_ops3_1 (StableHlo.after hostOps3 (W8 m ρ c)) main_arg3 (by simp [keep])).trans
      (same_ops3 (W8 m ρ c) main_arg3 (by simp [keep]))).trans (arg3_of_same m ρ c (same_W8 m ρ c)))

/-- At the end the kernel's result array holds the reference's result, as a function of the launch arguments. -/
theorem result_eq : W12 m ρ c (Proc.devRef .tc main_v133) = val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W12_arr m ρ c 3).trans ((Region3.array_eq (V11 m ρ) c).trans
    ((congr (congrArg₂ (affine (M := 512) (K := 128) (N := 10)) (at_v132 m ρ c) (arg10_of_same m ρ c (same_W11 m ρ c)))
        (arg11_of_same m ρ c (same_W11 m ρ c))).trans
      (ref_classifier _ _ _ _ _ _ _ _ _ _ _ _).symm))

end Cert.Bridge

end
-- ==== Proof.lean ====
/-
  A three-layer graph-convolution network with mean pooling and a linear classifier, against its plain reference,
  at the exact (extended-real) values.

  The two programs do the same host operations in the same order — the degree of each node and its inverse square
  root, the gather of features along the edges and their weighted accumulating scatter to the destination nodes,
  the self-loop term, the bias, the rectifier, the per-graph sums and counts, the quotient — and differ only where
  the reference multiplies: each of its three 100000×128 by 128×128 products is, in the kernel, a launch that
  multiplies 5000 rows at a time (after a change of float format that keeps every exact value, into a zero
  accumulator), and its classifier — a 512×128 by 128×10 product plus a bias — is one more launch.  Entry (p, q) of a
  product is a sum over k of A(p, k) · W(k, q), which needs only row p of A: the blocks of the product are the
  products of the blocks, the twenty blocks tile the array, and the two programs compute the same array at every
  stage.  No law of arithmetic beyond "the same finite sum" joins the two sides, so the finiteness of the inputs is
  never used.

  The three frame claims are the generated frame certificates (the reference's is its generated run with the result
  dropped); the idealization rewrote nothing, so nothing is owed for it; the value claim is the kernel's run with its
  result named (Proof/KernelRun.lean), walked segment by segment against the reference's stages (Proof/Stages.lean)
  over the launches' whole-array products (Proof/Region0–3.lean, Proof/Product.lean).
-/
import proofs.«178841_j5299989643753_1_alg».proof.Defs
import proofs.«178841_j5299989643753_1_alg».proof.Proof.Gen.Kernel
import proofs.«178841_j5299989643753_1_alg».proof.Proof.Gen.Kernel.Skeleton
import proofs.«178841_j5299989643753_1_alg».proof.Proof.Gen.Kernel.Launch
import proofs.«178841_j5299989643753_1_alg».proof.Proof.Gen.Kernel.Points
import proofs.«178841_j5299989643753_1_alg».proof.Proof.Gen.Kernel.Frame
import proofs.«178841_j5299989643753_1_alg».proof.Proof.Gen.KernelIdeal
import proofs.«178841_j5299989643753_1_alg».proof.Proof.Gen.KernelIdeal.Skeleton
import proofs.«178841_j5299989643753_1_alg».proof.Proof.Gen.KernelIdeal.Launch
import proofs.«178841_j5299989643753_1_alg».proof.Proof.Gen.KernelIdeal.Points
import proofs.«178841_j5299989643753_1_alg».proof.Proof.Gen.KernelIdeal.Frame
import proofs.«178841_j5299989643753_1_alg».proof.Proof.Gen.ReferenceIdeal
import proofs.«178841_j5299989643753_1_alg».proof.Proof.Gen.Pre_finite_inputs
import proofs.«178841_j5299989643753_1_alg».proof.Proof.Gen.ReferenceIdeal.Run
import proofs.«178841_j5299989643753_1_alg».proof.Proof.Gen.ReferenceIdeal.Read
import proofs.«178841_j5299989643753_1_alg».proof.Proof.KernelRun
import proofs.«178841_j5299989643753_1_alg».proof.Proof.Stages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end, the kernel's result array holding the last stage of
    its fold and the reference's its composed term; the walk through the segments shows the two are one array. -/
theorem algebraic : Cert.algebraic_KernelIdeal_ReferenceIdeal := by
  intro m ρ m' ρ' _ hagree
  refine ⟨fun c => Cert.KernelIdeal.Gen.W12 m ρ c (Proc.devRef .tc Cert.KernelIdeal.main_v133),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v136_eq]
  obtain ⟨e0, e1, e2, e3, e4, e5, e6, e7, e8, e9, e10, e11⟩ := hagree c
  rw [e0, e1, e2, e3, e4, e5, e6, e7, e8, e9, e10, e11]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
